-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024 : Shape := ⟨3, ![32, 1, 1024]⟩
abbrev S32x1024x1 : Shape := ⟨3, ![32, 1024, 1]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S32x1x1024 : S_.BroadcastsInDim S32x1x1024 (![] : Fin 0 → Fin S32x1x1024.rank)
  reducesTo_S32x1x1024_S_d0_1_2 : S32x1x1024.ReducesTo [0, 1, 2] S_
  h_S_ : 0 < S_.numel
  bcast_S_S32x1024x1 : S_.BroadcastsInDim S32x1024x1 (![] : Fin 0 → Fin S32x1024x1.rank)
  reducesTo_S32x1024x1_S_d0_1_2 : S32x1024x1.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x512 .f32) (main_arg5 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S32x1x1024 .f32) (main_arg1 : FVec F S32x1024x1 .f32) (main_arg2 : FVec F S512x1024 .f32) (main_arg3 : FVec F S512 .f32) (main_arg4 : FVec F S1024x512 .f32) (main_arg5 : FVec F S1024 .f32) : IVec S_ 1 :=
  let main_v0 : FVec F S32x1x1024 .f32 := Host.absf main_arg0
  let main_cst : FVec F S_ .f32 := constant S_ .f32 0x7F800000#32
  let main_v1 : FVec F S32x1x1024 .f32 := broadcastInDim S32x1x1024 ![] bcast_S_S32x1x1024 main_cst
  let main_v2 : IVec S32x1x1024 1 := cmpf .olt main_v0 main_v1
  let main_c : IVec S_ 1 := constantI S_ 1 1#1
  let main_v3 : IVec S_ 1 := (fun x v => Host.reduce IntOp.andi x v reducesTo_S32x1x1024_S_d0_1_2 h_S_) main_v2 main_c
  let main_v4 : FVec F S32x1024x1 .f32 := Host.absf main_arg1
  let main_cst_0 : FVec F S_ .f32 := constant S_ .f32 0x7F800000#32
  let main_v5 : FVec F S32x1024x1 .f32 := broadcastInDim S32x1024x1 ![] bcast_S_S32x1024x1 main_cst_0
  let main_v6 : IVec S32x1024x1 1 := cmpf .olt main_v4 main_v5
  let main_c_1 : IVec S_ 1 := constantI S_ 1 1#1
  let main_v7 : IVec S_ 1 := (fun x v => Host.reduce IntOp.andi x v reducesTo_S32x1024x1_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S32x1x1024 : Shape := ⟨3, ![32, 1, 1024]⟩
abbrev S32x1024x1 : Shape := ⟨3, ![32, 1024, 1]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S32x1024x1024 : Shape := ⟨3, ![32, 1024, 1024]⟩
abbrev S1x1x1024 : Shape := ⟨3, ![1, 1, 1024]⟩
abbrev S1x1024x1024 : Shape := ⟨3, ![1, 1024, 1024]⟩
abbrev S1x1024 : Shape := ⟨2, ![1, 1024]⟩
abbrev S8x1024 : Shape := ⟨2, ![8, 1024]⟩
abbrev S8x512 : Shape := ⟨2, ![8, 512]⟩
abbrev S1x512 : Shape := ⟨2, ![1, 512]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S32x1x1024, .f32⟩
  | .hbm, ⟨1, _⟩ => ⟨S32x1024x1, .f32⟩
  | .hbm, ⟨2, _⟩ => ⟨S512x1024, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S512x1024, .bf16⟩
  | .hbm, ⟨7, _⟩ => ⟨S1024x512, .bf16⟩
  | .hbm, ⟨8, _⟩ => ⟨S32x1024x1024, .f32⟩
  | .local _ .vmem, ⟨0, _⟩ => ⟨S1x1x1024, .f32⟩
  | .local _ .vmem, ⟨1, _⟩ => ⟨S1x1x1024, .f32⟩
  | .local _ .vmem, ⟨2, _⟩ => ⟨S512x1024, .bf16⟩
  | .local _ .vmem, ⟨3, _⟩ => ⟨S512, .f32⟩
  | .local _ .vmem, ⟨4, _⟩ => ⟨S1024x512, .bf16⟩
  | .local _ .vmem, ⟨5, _⟩ => ⟨S1024, .f32⟩
  | .local _ .vmem, ⟨6, _⟩ => ⟨S1x1024x1024, .f32⟩
  | .local _ .vmem, ⟨7, _⟩ => ⟨S1x1024x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  shapeCasts_S1x1024_S1x1024 : S1x1024.ShapeCasts S1x1024
  broadcasts_S1x1024_S8x1024 : S1x1024.Broadcasts S8x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512_S512_0 : ∀ a, (![0] : Fin 1 → Nat) a + S512.size a ≤ S512.size a
  h_S512 : 0 < S512.numel
  shapeCasts_S512_S1x512 : S512.ShapeCasts S1x512
  broadcasts_S1x512_S8x512 : S1x512.Broadcasts S8x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024_S1024_0 : ∀ a, (![0] : Fin 1 → Nat) a + S1024.size a ≤ S1024.size a
  h_S1024 : 0 < S1024.numel
  slices_S8x1024_o0_0_S1x1024 : S8x1024.Slices ![0, 0] S1x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S8x1024_S512x1024_S8x512_1_1_0_0_n_n_wf : DotDims.WF S8x1024 S512x1024 S8x512 [1] [1] [0] [0] [] []
  dot_S8x512_S1024x512_S8x1024_1_1_0_0_n_n_wf : DotDims.WF S8x512 S1024x512 S8x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S32x1x1024.size a
  hwx0_0 : ∀ i : grid0.Coords, EltTy.bits .f32 = 32 ∨ (Rect.block (s := S32x1x1024) S1x1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S32x1024x1024.size a
  hwx0_5 : ∀ i : grid0.Coords, EltTy.bits .f32 = 32 ∨ (Rect.block (s := S32x1024x1024) S1x1024x1024.size (cc0_transform_5 i) (hinb0_5 i)).WholeWords (EltTy.packing .f32)

variable [Facts₀]

def dot_S8x1024_S512x1024_S8x512_1_1_0_0_n_n : DotDims S8x1024 S512x1024 S8x512 where
  lhsContracting := [1]
  rhsContracting := [1]
  lhsNonContracting := [0]
  rhsNonContracting := [0]
  lhsBatch := []
  rhsBatch := []
  wf := dot_S8x1024_S512x1024_S8x512_1_1_0_0_n_n_wf
def dot_S8x512_S1024x512_S8x1024_1_1_0_0_n_n : DotDims S8x512 S1024x512 S8x1024 where
  lhsContracting := [1]
  rhsContracting := [1]
  lhsNonContracting := [0]
  rhsNonContracting := [0]
  lhsBatch := []
  rhsBatch := []
  wf := dot_S8x512_S1024x512_S8x1024_1_1_0_0_n_n_wf

abbrev win0_0 : Pipeline.Window sig grid0 :=
  Pipeline.Window.ofSpec (Memref.whole main_arg0) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x1x1024 : Shape := ⟨3, ![32, 1, 1024]⟩
abbrev S32x1024x1 : Shape := ⟨3, ![32, 1024, 1]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S_ : Shape := ⟨0, ![]⟩
abbrev S32x1024x1024 : Shape := ⟨3, ![32, 1024, 1024]⟩
abbrev S32x1024x512 : Shape := ⟨3, ![32, 1024, 512]⟩
abbrev S1x1x512 : Shape := ⟨3, ![1, 1, 512]⟩
abbrev S1x1x1024 : Shape := ⟨3, ![1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1024x1, .f32⟩
  | .hbm, ⟨2, _⟩ => ⟨S512x1024, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S_, .f32⟩
  | .hbm, ⟨7, _⟩ => ⟨S32x1024x1, .f32⟩
  | .hbm, ⟨8, _⟩ => ⟨S32x1024x1024, .f32⟩
  | .hbm, ⟨9, _⟩ => ⟨S32x1024x512, .f32⟩
  | .hbm, ⟨10, _⟩ => ⟨S1x1x512, .f32⟩
  | .hbm, ⟨11, _⟩ => ⟨S32x1024x512, .f32⟩
  | .hbm, ⟨12, _⟩ => ⟨S32x1024x512, .f32⟩
  | .hbm, ⟨13, _⟩ => ⟨S_, .f32⟩
  | .hbm, ⟨14, _⟩ => ⟨S32x1024x512, .f32⟩
  | .hbm, ⟨15, _⟩ => ⟨S32x1024x512, .f32⟩
  | .hbm, ⟨16, _⟩ => ⟨S32x1024x1024, .f32⟩
  | .hbm, ⟨17, _⟩ => ⟨S1x1x1024, .f32⟩
  | .hbm, ⟨18, _⟩ => ⟨S32x1024x1024, .f32⟩
  | .hbm, ⟨19, _⟩ => ⟨S32x1024x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  bcast_S_S32x1024x1 : S_.BroadcastsInDim S32x1024x1 (![] : Fin 0 → Fin S32x1024x1.rank)
  bcast_S512_S1x1x512_2 : S512.BroadcastsInDim S1x1x512 (![2] : Fin 1 → Fin S1x1x512.rank)
  bcast_S1x1x512_S32x1024x512_0_1_2 : S1x1x512.BroadcastsInDim S32x1024x512 (![0, 1, 2] : Fin 3 → Fin S32x1024x512.rank)
  bcast_S_S32x1024x512 : S_.BroadcastsInDim S32x1024x512 (![] : Fin 0 → Fin S32x1024x512.rank)
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  dot_S32x1024x1_S32x1x1024_S32x1024x1024_2_1_1_2_0_0_wf : DotDims.WF S32x1024x1 S32x1x1024 S32x1024x1024 [2] [1] [1] [2] [0] [0]
  dot_S32x1024x1024_S512x1024_S32x1024x512_2_1_01_0_n_n_wf : DotDims.WF S32x1024x1024 S512x1024 S32x1024x512 [2] [1] [0, 1] [0] [] []
  dot_S32x1024x512_S1024x512_S32x1024x1024_2_1_01_0_n_n_wf : DotDims.WF S32x1024x512 S1024x512 S32x1024x1024 [2] [1] [0, 1] [0] [] []

variable [Facts₀]

def dot_S32x1024x1_S32x1x1024_S32x1024x1024_2_1_1_2_0_0 : DotDims S32x1024x1 S32x1x1024 S32x1024x1024 where
  lhsContracting := [2]
  rhsContracting := [1]
  lhsNonContracting := [1]
  rhsNonContracting := [2]
  lhsBatch := [0]
  rhsBatch := [0]
  wf := dot_S32x1024x1_S32x1x1024_S32x1024x1024_2_1_1_2_0_0_wf
def dot_S32x1024x1024_S512x1024_S32x1024x512_2_1_01_0_n_n : DotDims S32x1024x1024 S512x1024 S32x1024x512 where
  lhsContracting := [2]
  rhsContracting := [1]
  lhsNonContracting := [0, 1]
  rhsNonContracting := [0]
  lhsBatch := []
  rhsBatch := []
  wf := dot_S32x1024x1024_S512x1024_S32x1024x512_2_1_01_0_n_n_wf
def dot_S32x1024x512_S1024x512_S32x1024x1024_2_1_01_0_n_n : DotDims S32x1024x512 S1024x512 S32x1024x1024 where
  lhsContracting := [2]
  rhsContracting := [1]
  lhsNonContracting := [0, 1]
  rhsNonContracting := [0]
  lhsBatch := []
  rhsBatch := []
  wf := dot_S32x1024x512_S1024x512_S32x1024x1024_2_1_01_0_n_n_wf

class Facts : Prop extends Facts₀ where

variable [Facts]
-- ==== Proof.Spec.lean ====
/-
  The function both programs compute, index by index, on the extended reals.

  A batch item `b` contributes ONE input row `x[b, 0, ·]` of length 1024. A two-layer perceptron is applied to that row:
  hidden unit `h` is `max (Σ_r x[b,0,r] · W1[h,r] + b1[h]) 0`, and output `o` is `Σ_h hidden_h · W2[o,h] + b2[o]`.
  Each of the 1024 rows `s` of batch item `b` of the result holds that same output row: the result at `(b, s, o)` does
  not depend on `s`.

  The sums are finite sums in the commutative monoid of the extended reals, so no order of summation is part of the
  function, and no finiteness of the inputs is needed to state or to compare it.
-/
import Idealize.ShloMosaic.PureOps.Ideal
import Idealize.ShloMosaic.Lib.ValueIdx

noncomputable section

open scoped BigOperators

namespace Cert.DenseMlp

open Idealize.ShloMosaic Idealize.ShloMosaic.ValueIdx

/-- Hidden unit `h` of an input row `xr`: the row against row `h` of `W1`, plus the bias, clipped below at zero (the
    zero kept as the word `0x00000000` both programs write, so that it is never evaluated). -/
def hiddenAt (xr : Fin 1024 → EReal) (W1 : (⟨2, ![512, 1024]⟩ : Shape).Idx → EReal)
    (b1 : (⟨1, ![512]⟩ : Shape).Idx → EReal) (h : Fin 512) : EReal :=
  max ((∑ r : Fin 1024, xr r * W1 (ix2 h r)) + b1 (ix1 h)) (Ideal.ofBits .f32 0x00000000#32)

/-- Output `o` of an input row `xr`: the hidden layer against row `o` of `W2`, plus the bias. -/
def rowAt (xr : Fin 1024 → EReal) (W1 : (⟨2, ![512, 1024]⟩ : Shape).Idx → EReal)
    (b1 : (⟨1, ![512]⟩ : Shape).Idx → EReal) (W2 : (⟨2, ![1024, 512]⟩ : Shape).Idx → EReal)
    (b2 : (⟨1, ![1024]⟩ : Shape).Idx → EReal) (o : Fin 1024) : EReal :=
  (∑ h : Fin 512, hiddenAt xr W1 b1 h * W2 (ix2 o h)) + b2 (ix1 o)

/-- The whole result: at `(b, s, o)` the output `o` of batch item `b`'s one input row, whatever `s`. -/
def mlp (x : (⟨3, ![32, 1, 1024]⟩ : Shape).Idx → EReal) (W1 : (⟨2, ![512, 1024]⟩ : Shape).Idx → EReal)
    (b1 : (⟨1, ![512]⟩ : Shape).Idx → EReal) (W2 : (⟨2, ![1024, 512]⟩ : Shape).Idx → EReal)
    (b2 : (⟨1, ![1024]⟩ : Shape).Idx → EReal) : (⟨3, ![32, 1024, 1024]⟩ : Shape).Idx → EReal :=
  fun i => rowAt (fun r => x (ix3 (i 0 : Fin 32) (0 : Fin 1) r)) W1 b1 W2 b2 (i 2 : Fin 1024)

end Cert.DenseMlp

end
-- ==== Proof.Payload.lean ====
/-
  What one grid point's body stores, read at an index, on the extended reals.

  The body takes the point's input row (a [1,1,1024] block), lays it out as the 8 equal rows of an [8,1024] matrix,
  multiplies by `W1ᵀ` into a zero accumulator, adds the bias row, clips below at zero, multiplies by `W2ᵀ` into a zero
  accumulator, adds the second bias row, keeps row 0 of the 8 equal rows, and lays that row out as all 1024 rows of the
  [1,1024,1024] block it stores. Read at `(u, s, o)` the stored block is therefore output `o` of the two-layer
  perceptron of the input row (`Cert.DenseMlp.rowAt`), whatever `s`.

  A matrix product into the zero accumulator is, at each entry, the plain sum over the contracted axis of the
  products; the changes of float format are the identity on the extended reals; every other step only re-indexes.
-/
import proofs.«115752_j14894946583396_2_alg».proof.Proof.Gen.KernelIdeal.Skeleton
import proofs.«115752_j14894946583396_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Row

open Cert.KernelIdeal Cert.KernelIdeal.Gen Cert.DenseMlp Idealize.ShloMosaic Idealize.ShloMosaic.ValueIdx

/-- The first product's dimension numbers: [8,1024] against [512,1024], both contracted on their axis 1. -/
abbrev dotHidden := dot_S8x1024_S512x1024_S8x512_1_1_0_0_n_n
/-- The second product's: [8,512] against [1024,512], both contracted on their axis 1. -/
abbrev dotOut := dot_S8x512_S1024x512_S8x1024_1_1_0_0_n_n

/-! ## The two products' operand indices -/

theorem hidden_lhs0 (i : S8x512.Idx) (q : dotHidden.contr.Idx) : (dotHidden.lhsIdx i q 0).val = (i 0).val := by
  unfold DotDims.lhsIdx
  rw [dif_neg (show ¬(0 : Fin S8x1024.rank) ∈ dotHidden.lhsBatch by decide), dif_pos (show (0 : Fin S8x1024.rank) ∈ dotHidden.lhsNonContracting by decide)]
  rfl
theorem hidden_lhs1 (i : S8x512.Idx) (q : dotHidden.contr.Idx) : (dotHidden.lhsIdx i q 1).val = (q ⟨0, by decide⟩).val :=
  dotHidden.lhsIdx_val_of_single rfl i q
theorem hidden_rhs0 (i : S8x512.Idx) (q : dotHidden.contr.Idx) : (dotHidden.rhsIdx i q 0).val = (i 1).val := by
  unfold DotDims.rhsIdx
  rw [dif_neg (show ¬(0 : Fin S512x1024.rank) ∈ dotHidden.rhsBatch by decide), dif_pos (show (0 : Fin S512x1024.rank) ∈ dotHidden.rhsNonContracting by decide)]
  rfl
theorem hidden_rhs1 (i : S8x512.Idx) (q : dotHidden.contr.Idx) : (dotHidden.rhsIdx i q 1).val = (q ⟨0, by decide⟩).val :=
  dotHidden.rhsIdx_val_of_single rfl i q

theorem out_lhs0 (i : S8x1024.Idx) (q : dotOut.contr.Idx) : (dotOut.lhsIdx i q 0).val = (i 0).val := by
  unfold DotDims.lhsIdx
  rw [dif_neg (show ¬(0 : Fin S8x512.rank) ∈ dotOut.lhsBatch by decide), dif_pos (show (0 : Fin S8x512.rank) ∈ dotOut.lhsNonContracting by decide)]
  rfl
theorem out_lhs1 (i : S8x1024.Idx) (q : dotOut.contr.Idx) : (dotOut.lhsIdx i q 1).val = (q ⟨0, by decide⟩).val :=
  dotOut.lhsIdx_val_of_single rfl i q
theorem out_rhs0 (i : S8x1024.Idx) (q : dotOut.contr.Idx) : (dotOut.rhsIdx i q 0).val = (i 1).val := by
  unfold DotDims.rhsIdx
  rw [dif_neg (show ¬(0 : Fin S1024x512.rank) ∈ dotOut.rhsBatch by decide), dif_pos (show (0 : Fin S1024x512.rank) ∈ dotOut.rhsNonContracting by decide)]
  rfl
theorem out_rhs1 (i : S8x1024.Idx) (q : dotOut.contr.Idx) : (dotOut.rhsIdx i q 1).val = (q ⟨0, by decide⟩).val :=
  dotOut.rhsIdx_val_of_single rfl i q

/-! ## The two products at an entry -/

/-- Entry `(p, h)` of the first product into the zero accumulator: row `p` of the left operand against row `h` of the
    right one, summed over the 1024 contracted positions. -/
theorem hidden_matmul_apply (A : FVec Ideal S8x1024 .bf16) (B : FVec Ideal S512x1024 .bf16) (p : Fin 8) (h : Fin 512) :
    matmul dotHidden none A B (constant S8x512 .f32 0x00000000#32) (ix2 p h) = ∑ r : Fin 1024, A (ix2 p r) * B (ix2 h r) := by
  simp only [matmul]
  rw [Ideal.matmul_constant_zero_apply, ← Equiv.sum_comp (contrEquiv1 dotHidden 1024 rfl rfl).symm]
  refine Finset.sum_congr rfl fun k _ => ?_
  have hk := contrEquiv1_symm_val dotHidden 1024 rfl rfl k
  have el : dotHidden.lhsIdx (ix2 p h) ((contrEquiv1 dotHidden 1024 rfl rfl).symm k) = ix2 p k := funext fun a => Fin.ext (by
    match a with
    | ⟨0, _⟩ => exact hidden_lhs0 _ _
    | ⟨1, _⟩ => exact (hidden_lhs1 _ _).trans hk)
  have er : dotHidden.rhsIdx (ix2 p h) ((contrEquiv1 dotHidden 1024 rfl rfl).symm k) = ix2 h k := funext fun a => Fin.ext (by
    match a with
    | ⟨0, _⟩ => exact hidden_rhs0 _ _
    | ⟨1, _⟩ => exact (hidden_rhs1 _ _).trans hk)
  rw [el, er]

/-- Entry `(p, o)` of the second product into the zero accumulator: row `p` of the left operand against row `o` of the
    right one, summed over the 512 contracted positions. -/
theorem out_matmul_apply (A : FVec Ideal S8x512 .bf16) (B : FVec Ideal S1024x512 .bf16) (p : Fin 8) (o : Fin 1024) :
    matmul dotOut none A B (constant S8x1024 .f32 0x00000000#32) (ix2 p o) = ∑ h : Fin 512, A (ix2 p h) * B (ix2 o h) := by
  simp only [matmul]
  rw [Ideal.matmul_constant_zero_apply, ← Equiv.sum_comp (contrEquiv1 dotOut 512 rfl rfl).symm]
  refine Finset.sum_congr rfl fun k _ => ?_
  have hk := contrEquiv1_symm_val dotOut 512 rfl rfl k
  have el : dotOut.lhsIdx (ix2 p o) ((contrEquiv1 dotOut 512 rfl rfl).symm k) = ix2 p k := funext fun a => Fin.ext (by
    match a with
    | ⟨0, _⟩ => exact out_lhs0 _ _
    | ⟨1, _⟩ => exact (out_lhs1 _ _).trans hk)
  have er : dotOut.rhsIdx (ix2 p o) ((contrEquiv1 dotOut 512 rfl rfl).symm k) = ix2 o k := funext fun a => Fin.ext (by
    match a with
    | ⟨0, _⟩ => exact out_rhs0 _ _
    | ⟨1, _⟩ => exact (out_rhs1 _ _).trans hk)
  rw [el, er]

/-! ## Re-indexings -/

/-- A [1,1,a] block flattened to length `a` reads, at `r`, the block at `(0, 0, r)`. -/
theorem flatten_apply {α : Type} {a : ℕ} (x : (⟨3, ![1, 1, a]⟩ : Shape).Idx → α)
    (h : (⟨3, ![1, 1, a]⟩ : Shape).ShapeCasts ⟨1, ![a]⟩) (r : Fin a) :
    shapeCast ⟨1, ![a]⟩ x h (ix1 r) = x (ix3 (0 : Fin 1) (0 : Fin 1) r) :=
  shapeCast_apply x h _ _ (by
    rw [Shape.rowMajor_val_three, Shape.rowMajor_val_one]
    show (0 * 1 + 0) * a + r.val = r.val
    simp)

/-! ## The stored block at an index -/

/-- The block a grid point stores, at `(u, s, o)`: output `o` of the perceptron of the point's input row, for every `s`.
    Outermost first: the stored block is the [1024,1024] matrix with a unit axis put in front; that matrix is one row
    repeated; the row is row 0 of the [8,1024] second layer; the second layer is the second product plus its bias row;
    its left operand is the clipped first layer, the first product plus its bias row; and the first product's left
    operand is the input row repeated 8 times. -/
theorem pay_apply (x0 : Vec Ideal S1x1x1024 .f32) (x1 : Vec Ideal S512x1024 .bf16) (x2 : Vec Ideal S512 .f32)
    (x3 : Vec Ideal S1024x512 .bf16) (x4 : Vec Ideal S1024 .f32) (u : Fin 1) (s o : Fin 1024) :
    k0_pay1 (F := Ideal) x0 x1 x2 x3 x4 (ix3 u s o)
      = rowAt (fun r => x0 (ix3 (0 : Fin 1) (0 : Fin 1) r)) x1 x2 x3 x4 o := by
  unfold k0_pay1
  simp only [shapeCast_self]
  refine (shapeCast_ab_1ab_apply _ _ u s o).trans ?_
  refine (broadcastTo_1b_ab_apply _ _ s o).trans ?_
  refine (slice2_axis0_apply 0 _ _ (0 : Fin 1) o (0 : Fin 8) rfl).trans ?_
  refine (addf_apply _ _ _).trans ?_
  unfold rowAt
  refine congrArg₂ (· + ·) ?_ ?_
  · refine (out_matmul_apply _ _ 0 o).trans (Finset.sum_congr rfl fun h _ => congrArg (· * x3 (ix2 o h)) ?_)
    unfold hiddenAt
    refine (truncf_apply (ψ := .bf16) _ bitsLt_bf16_f32 _).trans ?_
    refine (maximumf_apply _ _ _).trans ?_
    refine congrArg₂ max ?_ rfl
    refine (addf_apply _ _ _).trans ?_
    refine congrArg₂ (· + ·) ?_ ?_
    · refine (hidden_matmul_apply _ _ 0 h).trans (Finset.sum_congr rfl fun r _ => congrArg (· * x1 (ix2 h r)) ?_)
      refine (broadcastTo_1b_ab_apply _ _ 0 r).trans ?_
      refine (shapeCast_a_1a_apply _ _ 0 r).trans ?_
      refine (truncf_apply (ψ := .bf16) _ bitsLt_bf16_f32 _).trans ?_
      exact flatten_apply _ _ r
    · refine (broadcastTo_1b_ab_apply _ _ 0 h).trans ?_
      exact shapeCast_a_1a_apply _ _ 0 h
  · refine (broadcastTo_1b_ab_apply _ _ 0 o).trans ?_
    exact shapeCast_a_1a_apply _ _ 0 o

end Cert.KernelIdeal.Row

end
-- ==== Proof.KernelValue.lean ====
/-
  The kernel's result array after the run, as one function of the argument arrays.

  The grid has 32 points, one per batch item. At point `t` the input window holds row `x[t, 0, ·]`; the two weight
  windows hold the whole weight arrays as the host left them before the launch (each weight array with its float
  format changed, which is the identity on the extended reals); the two bias windows hold the whole bias arrays. The
  point writes back the [1,1024,1024] block at batch index `t`, and that block, read at `(u, s, o)`, is output `o` of the
  perceptron of row `x[t, 0, ·]` (`Row.pay_apply`): block `t` of `Cert.DenseMlp.mlp` of the argument arrays. The 32
  blocks tile the result array along its first axis — index `(b, s, o)` lies in point `b`'s block — so the array ends
  holding `mlp` of the argument arrays everywhere.
-/
import proofs.«115752_j14894946583396_2_alg».proof.Proof.Gen.KernelIdeal.Value
import proofs.«115752_j14894946583396_2_alg».proof.Proof.Payload
import Idealize.ShloMosaic.Lib.Pipeline.Value
import Idealize.ShloMosaic.Lib.StableHlo.Run
import Idealize.ShloMosaic.Lib.Tactic

noncomputable section

open scoped BigOperators

namespace Cert.KernelIdeal.Whole

open Cert.KernelIdeal Cert.KernelIdeal.Gen Cert.DenseMlp Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The weight arrays as the region finds them -/

/-- The first weight array, format-changed by the host before the launch, is the argument itself on the extended reals. -/
theorem V_w1 (c : Dev nD) :
    (V m c main_v0 : S512x1024.Idx → EReal) = (m ((c : Thread nD τ).loc main_arg2) : S512x1024.Idx → EReal) := by
  have e : (V m c main_v0 : S512x1024.Idx → EReal)
      = truncf (F := Ideal) .bf16 (m ((c : Thread nD τ).loc main_arg2) : FVec Ideal S512x1024 .f32) bitsLt_bf16_f32 := by
    dsimp only [Gen.V, Gen.hostOps0]; after_results
  rw [e]; rfl

/-- The second weight array likewise. -/
theorem V_w2 (c : Dev nD) :
    (V m c main_v1 : S1024x512.Idx → EReal) = (m ((c : Thread nD τ).loc main_arg4) : S1024x512.Idx → EReal) := by
  have e : (V m c main_v1 : S1024x512.Idx → EReal)
      = truncf (F := Ideal) .bf16 (m ((c : Thread nD τ).loc main_arg4) : FVec Ideal S1024x512 .f32) bitsLt_bf16_f32 := by
    dsimp only [Gen.V, Gen.hostOps0]; after_results
  rw [e]; rfl

/-! ## The windows' block indices over the grid -/

/-- The input window and the output window sit at batch index `t`; the weight and bias windows never move. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

/-! ## The input blocks at a point -/

/-- The input window's block at point `t` is row `x[t, 0, ·]`. -/
theorem iblk0_apply (c : Dev nD) (t : Fin cfg0.N) (tb : Fin 32) (htb : tb.val = t.val) (r : Fin 1024) :
    (iblk m c 0 t : Vec Ideal S1x1x1024 .f32) (ix3 (0 : Fin 1) (0 : Fin 1) r)
      = (m ((c : Thread nD τ).loc main_arg0) : S32x1x1024.Idx → EReal) (ix3 tb (0 : Fin 1) r) := by
  obtain ⟨e0, e1, e2, -⟩ := idx_facts t
  show V m c main_arg0 (((cfg0.win 0).blk t).view.emb (ix3 (0 : Fin 1) (0 : Fin 1) r)) = _
  rw [V_main_arg0]
  refine congrArg (m ((c : Thread nD τ).loc main_arg0) : S32x1x1024.Idx → EReal) ?_
  funext a; apply Fin.ext
  match a with
  | ⟨0, _⟩ => show win0_0.index t (0 : Fin 3) * 1 + 1 * 0 = tb.val; omega
  | ⟨1, _⟩ => show win0_0.index t (1 : Fin 3) * 1 + 1 * 0 = 0; omega
  | ⟨2, _⟩ => show win0_0.index t (2 : Fin 3) * 1024 + 1 * r.val = r.val; omega

/-- The first weight window's block is the whole first weight argument, at every point. -/
theorem iblk1_eq (c : Dev nD) (t : Fin cfg0.N) :
    (iblk m c 1 t : Vec Ideal S512x1024 .bf16) = (m ((c : Thread nD τ).loc main_arg2) : S512x1024.Idx → EReal) := by
  obtain ⟨-, -, -, e0, e1, -⟩ := idx_facts t
  refine funext fun (y : S512x1024.Idx) => ?_
  show V m c main_v0 (((cfg0.win 1).blk t).view.emb y) = _
  rw [V_w1]
  refine congrArg (m ((c : Thread nD τ).loc main_arg2) : S512x1024.Idx → EReal) ?_
  funext a; apply Fin.ext
  match a with
  | ⟨0, _⟩ => show win0_1.index t (0 : Fin 2) * 512 + 1 * (y 0).val = (y 0).val; omega
  | ⟨1, _⟩ => show win0_1.index t (1 : Fin 2) * 1024 + 1 * (y 1).val = (y 1).val; omega

/-- The first bias window's block is the whole first bias argument. -/
theorem iblk2_eq (c : Dev nD) (t : Fin cfg0.N) :
    (iblk m c 2 t : Vec Ideal S512 .f32) = (m ((c : Thread nD τ).loc main_arg3) : S512.Idx → EReal) := by
  obtain ⟨-, -, -, -, -, e0, -⟩ := idx_facts t
  refine funext fun (y : S512.Idx) => ?_
  show V m c main_arg3 (((cfg0.win 2).blk t).view.emb y) = _
  rw [V_main_arg3]
  refine congrArg (m ((c : Thread nD τ).loc main_arg3) : S512.Idx → EReal) ?_
  funext a; apply Fin.ext
  match a with
  | ⟨0, _⟩ => show win0_2.index t (0 : Fin 1) * 512 + 1 * (y 0).val = (y 0).val; omega

/-- The second weight window's block is the whole second weight argument. -/
theorem iblk3_eq (c : Dev nD) (t : Fin cfg0.N) :
    (iblk m c 3 t : Vec Ideal S1024x512 .bf16) = (m ((c : Thread nD τ).loc main_arg4) : S1024x512.Idx → EReal) := by
  obtain ⟨-, -, -, -, -, -, e0, e1, -⟩ := idx_facts t
  refine funext fun (y : S1024x512.Idx) => ?_
  show V m c main_v1 (((cfg0.win 3).blk t).view.emb y) = _
  rw [V_w2]
  refine congrArg (m ((c : Thread nD τ).loc main_arg4) : S1024x512.Idx → EReal) ?_
  funext a; apply Fin.ext
  match a with
  | ⟨0, _⟩ => show win0_3.index t (0 : Fin 2) * 1024 + 1 * (y 0).val = (y 0).val; omega
  | ⟨1, _⟩ => show win0_3.index t (1 : Fin 2) * 512 + 1 * (y 1).val = (y 1).val; omega

/-- The second bias window's block is the whole second bias argument. -/
theorem iblk4_eq (c : Dev nD) (t : Fin cfg0.N) :
    (iblk m c 4 t : Vec Ideal S1024 .f32) = (m ((c : Thread nD τ).loc main_arg5) : S1024.Idx → EReal) := by
  obtain ⟨-, -, -, -, -, -, -, -, e0, -⟩ := idx_facts t
  refine funext fun (y : S1024.Idx) => ?_
  show V m c main_arg5 (((cfg0.win 4).blk t).view.emb y) = _
  rw [V_main_arg5]
  refine congrArg (m ((c : Thread nD τ).loc main_arg5) : S1024.Idx → EReal) ?_
  funext a; apply Fin.ext
  match a with
  | ⟨0, _⟩ => show win0_4.index t (0 : Fin 1) * 1024 + 1 * (y 0).val = (y 0).val; omega

/-! ## One point's block is a block of the specification -/

/-- Over any input block whose one row is row `tb` of `X`, the stored block at `(u, s, o)` is the specification of the
    whole arrays at `(tb, s, o)`. -/
theorem stored_eq (X : (⟨3, ![32, 1, 1024]⟩ : Shape).Idx → EReal) (W1 : Vec Ideal S512x1024 .bf16) (b1 : Vec Ideal S512 .f32)
    (W2 : Vec Ideal S1024x512 .bf16) (b2 : Vec Ideal S1024 .f32) (tb : Fin 32)
    (x0 : Vec Ideal S1x1x1024 .f32) (hx0 : ∀ r : Fin 1024, x0 (ix3 (0 : Fin 1) (0 : Fin 1) r) = X (ix3 tb (0 : Fin 1) r))
    (u : Fin 1) (s o : Fin 1024) :
    k0_pay1 (F := Ideal) x0 W1 b1 W2 b2 (ix3 u s o) = mlp X W1 b1 W2 b2 (ix3 tb s o) := by
  rw [Row.pay_apply]
  unfold mlp
  exact congrArg (fun xr => rowAt xr W1 b1 W2 b2 o) (funext hx0)

/-- What the result array holds after the run: the specification of the argument arrays. -/
abbrev result (c : Dev nD) : Buf (Elt Ideal) ((c : Thread nD τ).loc main_v2) :=
  mlp (m ((c : Thread nD τ).loc main_arg0)) (m ((c : Thread nD τ).loc main_arg2)) (m ((c : Thread nD τ).loc main_arg3))
    (m ((c : Thread nD τ).loc main_arg4)) (m ((c : Thread nD τ).loc main_arg5))

/-- What point `t` writes back is block `t` of `result`. -/
theorem flushed_eq (c : Dev nD) (t : Fin cfg0.N) :
    (dats m 0 c).flushed 5 t = ((cfg0.win 5).blk t).view.read (Elt Ideal) (result m c) := by
  have hN : t.val < 32 := Nat.lt_of_lt_of_eq t.isLt N_0
  obtain ⟨-, -, -, -, -, -, -, -, -, e0, e1, e2⟩ := idx_facts t
  rw [Value.flushed5]
  unfold out0_5
  rw [View.canon_unit_zero hz3]
  simp only [View.ld_unit_zero (S := S1x1x1024) hz3, View.ld_unit_zero (S := S512x1024) hz2,
    View.ld_unit_zero (S := S512) hz1, View.ld_unit_zero (S := S1024x512) hz2, View.ld_unit_zero (S := S1024) hz1]
  rw [iblk1_eq, iblk2_eq, iblk3_eq, iblk4_eq]
  refine funext fun (y : S1x1024x1024.Idx) => ?_
  obtain ⟨u, s, o, rfl⟩ : ∃ (u : Fin 1) (s o : Fin 1024), y = ix3 u s o := ⟨y 0, y 1, y 2, eq_ix3 y⟩
  show k0_pay1 (F := Ideal) (iblk m c 0 t) (m ((c : Thread nD τ).loc main_arg2)) (m ((c : Thread nD τ).loc main_arg3))
      (m ((c : Thread nD τ).loc main_arg4)) (m ((c : Thread nD τ).loc main_arg5)) (ix3 u s o)
    = result m c (((cfg0.win 5).blk t).view.emb (ix3 u s o))
  have hemb : ((cfg0.win 5).blk t).view.emb (ix3 u s o) = (ix3 (⟨t.val, hN⟩ : Fin 32) s o : S32x1024x1024.Idx) := by
    funext a; apply Fin.ext
    match a with
    | ⟨0, _⟩ => show win0_5.index t (0 : Fin 3) * 1 + 1 * u.val = t.val; have := u.isLt; omega
    | ⟨1, _⟩ => show win0_5.index t (1 : Fin 3) * 1024 + 1 * s.val = s.val; omega
    | ⟨2, _⟩ => show win0_5.index t (2 : Fin 3) * 1024 + 1 * o.val = o.val; omega
  rw [hemb]
  exact stored_eq (m ((c : Thread nD τ).loc main_arg0)) (m ((c : Thread nD τ).loc main_arg2)) (m ((c : Thread nD τ).loc main_arg3))
    (m ((c : Thread nD τ).loc main_arg4)) (m ((c : Thread nD τ).loc main_arg5)) ⟨t.val, hN⟩ (iblk m c 0 t)
    (fun r => iblk0_apply m c t ⟨t.val, hN⟩ rfl r) u s o

/-! ## The blocks tile the array -/

/-- An index of the result array is in point `t`'s block iff each coordinate is in the block's range on its axis. -/
theorem mem_blk (t : Fin cfg0.N) (i : S32x1024x1024.Idx) :
    i ∈ ((cfg0.win 5).blk t).view.set ↔ ∀ a : Fin 3, win0_5.index t a * S1x1024x1024.size a ≤ (i a).val ∧ (i a).val < win0_5.index t a * S1x1024x1024.size a + S1x1024x1024.size a := by
  show i ∈ ((View.whole main_v2).slice (win0_5.rect t)).set ↔ _
  rw [View.set_slice_whole, Rect.mem_set_unit]
  exact Iff.rfl

/-- Index `(b, s, o)` lies in point `b`'s block, and every point writes back. -/
theorem cover (i : S32x1024x1024.Idx) :
    ∃ t : Fin cfg0.N, (cfg0.win 5).flush t = true ∧ i ∈ ((cfg0.win 5).blk t).view.set := by
  have hi0 : (i 0).val < 32 := (i 0).isLt
  have hi1 : (i 1).val < 1024 := (i 1).isLt
  have hi2 : (i 2).val < 1024 := (i 2).isLt
  have hN : cfg0.N = 32 := N_0
  have hlt : (i 0).val < cfg0.N := by rw [hN]; exact hi0
  obtain ⟨-, -, -, -, -, -, -, -, -, e0, e1, e2⟩ := idx_facts ⟨(i 0).val, hlt⟩
  have e0' : win0_5.index ⟨(i 0).val, hlt⟩ (0 : Fin 3) = (i 0).val := e0
  refine ⟨⟨(i 0).val, hlt⟩, flush0_5 _, ?_⟩
  rw [mem_blk]
  intro a
  match a with
  | ⟨0, _⟩ => show win0_5.index ⟨(i 0).val, hlt⟩ (0 : Fin 3) * 1 ≤ (i 0).val ∧ (i 0).val < win0_5.index ⟨(i 0).val, hlt⟩ (0 : Fin 3) * 1 + 1; rw [e0']; omega
  | ⟨1, _⟩ => show win0_5.index ⟨(i 0).val, hlt⟩ (1 : Fin 3) * 1024 ≤ (i 1).val ∧ (i 1).val < win0_5.index ⟨(i 0).val, hlt⟩ (1 : Fin 3) * 1024 + 1024; rw [e1]; omega
  | ⟨2, _⟩ => show win0_5.index ⟨(i 0).val, hlt⟩ (2 : Fin 3) * 1024 ≤ (i 2).val ∧ (i 2).val < win0_5.index ⟨(i 0).val, hlt⟩ (2 : Fin 3) * 1024 + 1024; rw [e2]; omega

/-! ## The array after the run, and the run -/

/-- The result array ends holding the specification of the argument arrays. -/
theorem final (c : Dev nD) : (dats m 0 c).arrAt 5 cfg0.N = result m c :=
  (dats m 0 c).arrAt_eq_of_cover 5 (result m c) (fun t _ => flushed_eq m c t) cover

/-- Every weakly fair execution of the idealized kernel's program terminates with the result array at the
    specification of the argument arrays, and the argument arrays unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefValue.lean ====
/-
  The reference program's result, read at an index, is the specification `Cert.DenseMlp.mlp` of its arguments.

  The reference first forms `sized[b,s,r] = Σ_{q<1} ones[b,s,q] · x[b,q,r]`, a contraction over an axis of extent one against
  the constant `1.0`: a one-term sum, and `1 · x = x` on the extended reals, so `sized[b,s,r] = x[b,0,r]`. Then
  `Σ_r sized[b,s,r] · W1[h,r] + b1[h]`, clipped below at zero, and `Σ_h hidden[b,s,h] · W2[o,h] + b2[o]`, the biases
  broadcast along the two leading axes. Every step is read at an index by the generated read-at-an-index lemmas; what
  is written here is the identification of their composed index functions with indices built from coordinates.
-/
import proofs.«115752_j14894946583396_2_alg».proof.Proof.Gen.ReferenceIdeal.Read
import proofs.«115752_j14894946583396_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Cert.DenseMlp Idealize.ShloMosaic Idealize.ShloMosaic.ValueIdx

/-- The second bias, broadcast along batch and row: at `(b, s, o)` it is `b2[o]`. -/
theorem bias2_apply (x5 : (⟨S1024, .f32⟩ : BufTy).Contents (Elt Ideal)) (b : Fin 32) (s o : Fin 1024) :
    val_main_v9 (F := Ideal) x5 (ix3 b s o) = x5 (ix1 o) := by
  rw [val_main_v9_apply, val_main_v8_apply]
  exact congrArg x5 (funext fun a => Fin.ext (by match a with | ⟨0, _⟩ => rfl))

/-- The first bias, broadcast along batch and row: at `(b, s, h)` it is `b1[h]`. -/
theorem bias1_apply (x3 : (⟨S512, .f32⟩ : BufTy).Contents (Elt Ideal)) (b : Fin 32) (s : Fin 1024) (h : Fin 512) :
    val_main_v4 (F := Ideal) x3 (ix3 b s h) = x3 (ix1 h) := by
  rw [val_main_v4_apply, val_main_v3_apply]
  exact congrArg x3 (funext fun a => Fin.ext (by match a with | ⟨0, _⟩ => rfl))

/-- The array of ones holds the extended real `1` everywhere: the word `0x3F800000` is `1.0`. -/
theorem ones_apply (j : S32x1024x1.Idx) : val_main_v0 (F := Ideal) j = 1 := by
  rw [val_main_v0_apply, val_main_cst_apply]
  exact IdealRules.sign_bit.ideal_onePat .f32

/-- The contraction of the ones against the input over the unit axis: `sized[b,s,r] = 1 · x[b,0,r] = x[b,0,r]`. -/
theorem sized_apply (x0 : (⟨S32x1x1024, .f32⟩ : BufTy).Contents (Elt Ideal)) (b : Fin 32) (s r : Fin 1024) :
    val_main_v1 (F := Ideal) x0 (ix3 b s r) = x0 (ix3 b (0 : Fin 1) r) := by
  rw [val_main_v1_apply, Fin.sum_univ_one, ones_apply, one_mul]
  exact congrArg x0 (funext fun a => Fin.ext (by match a with | ⟨0, _⟩ => rfl | ⟨1, _⟩ => rfl | ⟨2, _⟩ => rfl))

/-- The clipped first layer at `(b, s, h)` is hidden unit `h` of batch item `b`'s input row. -/
theorem hidden_apply (x0 : (⟨S32x1x1024, .f32⟩ : BufTy).Contents (Elt Ideal)) (x2 : (⟨S512x1024, .f32⟩ : BufTy).Contents (Elt Ideal))
    (x3 : (⟨S512, .f32⟩ : BufTy).Contents (Elt Ideal)) (b : Fin 32) (s : Fin 1024) (h : Fin 512) :
    val_main_v6 (F := Ideal) x0 x2 x3 (ix3 b s h) = hiddenAt (fun r => x0 (ix3 b (0 : Fin 1) r)) x2 x3 h := by
  unfold hiddenAt
  show max (val_main_v2 (F := Ideal) x0 x2 (ix3 b s h) + val_main_v4 (F := Ideal) x3 (ix3 b s h))
      (val_main_call0_v0 (F := Ideal) (ix3 b s h)) = _
  rw [val_main_v2_apply, bias1_apply, val_main_call0_v0_apply, val_main_call0_cst_apply]
  refine congrArg₂ max (congrArg₂ (· + ·) (Finset.sum_congr rfl fun r _ => ?_) rfl) rfl
  refine congrArg₂ (· * ·) ?_ (congrArg x2 ?_)
  · refine (congrArg (val_main_v1 (F := Ideal) x0) (?_ : lidx_main_v2 (ix3 b s h) r = ix3 b s r)).trans (sized_apply x0 b s r)
    funext a; apply Fin.ext
    match a with | ⟨0, _⟩ => rfl | ⟨1, _⟩ => rfl | ⟨2, _⟩ => rfl
  · funext a; apply Fin.ext
    match a with | ⟨0, _⟩ => rfl | ⟨1, _⟩ => rfl

/-- The reference's result is the specification of its arguments. -/
theorem ref_eq (x0 : (⟨S32x1x1024, .f32⟩ : BufTy).Contents (Elt Ideal)) (x2 : (⟨S512x1024, .f32⟩ : BufTy).Contents (Elt Ideal))
    (x3 : (⟨S512, .f32⟩ : BufTy).Contents (Elt Ideal)) (x4 : (⟨S1024x512, .f32⟩ : BufTy).Contents (Elt Ideal))
    (x5 : (⟨S1024, .f32⟩ : BufTy).Contents (Elt Ideal)) :
    val_main_v10 (F := Ideal) x0 x2 x3 x4 x5 = mlp x0 x2 x3 x4 x5 := by
  funext i
  obtain ⟨b, s, o, rfl⟩ : ∃ (b : Fin 32) (s : Fin 1024) (o : Fin 1024), i = ix3 b s o := ⟨i 0, i 1, i 2, eq_ix3 i⟩
  unfold mlp rowAt
  show val_main_v7 (F := Ideal) x0 x2 x3 x4 (ix3 b s o) + val_main_v9 (F := Ideal) x5 (ix3 b s o) = _
  rw [val_main_v7_apply, bias2_apply]
  refine congrArg₂ (· + ·) (Finset.sum_congr rfl fun h _ => ?_) rfl
  refine congrArg₂ (· * ·) ?_ (congrArg x4 ?_)
  · refine (congrArg (val_main_v6 (F := Ideal) x0 x2 x3) (?_ : lidx_main_v7 (ix3 b s o) h = ix3 b s h)).trans (hidden_apply x0 x2 x3 b s h)
    funext a; apply Fin.ext
    match a with | ⟨0, _⟩ => rfl | ⟨1, _⟩ => rfl | ⟨2, _⟩ => rfl
  · funext a; apply Fin.ext
    match a with | ⟨0, _⟩ => rfl | ⟨1, _⟩ => rfl

end Cert.ReferenceIdeal.RefValue

end
-- ==== Proof.lean ====
/-
  The certificate's five claims for the dense two-layer perceptron kernel against its jnp reference.

  Both programs compute, at result index `(b, s, o)`,
      Σ_h max (Σ_r x[b,0,r] · W1[h,r] + b1[h]) 0 · W2[o,h] + b2[o],
  independent of `s` (`Cert.DenseMlp.mlp`, Proof/Spec.lean). The kernel computes one output row per batch item and
  repeats it over the 1024 rows of the item's block (Proof/Payload.lean, Proof/KernelValue.lean); the reference first
  repeats the input row by contracting it against an array of ones over a unit axis — `1 · x = x` — and then applies
  the two layers to every row (Proof/RefValue.lean). On the extended reals the matrix products are plain finite sums
  and the changes of float format are the identity, so the two results are one function of the arguments; no
  finiteness of the inputs enters, and the precondition is never opened.

  The three frame claims are the generated frame runs (the reference's with its result dropped); the idealization
  rewrote no operation, so `preserves` is `True`.
-/
import proofs.«115752_j14894946583396_2_alg».proof.Defs
import proofs.«115752_j14894946583396_2_alg».proof.Proof.Gen.Kernel
import proofs.«115752_j14894946583396_2_alg».proof.Proof.Gen.Kernel.Skeleton
import proofs.«115752_j14894946583396_2_alg».proof.Proof.Gen.Kernel.Launch
import proofs.«115752_j14894946583396_2_alg».proof.Proof.Gen.Kernel.Points
import proofs.«115752_j14894946583396_2_alg».proof.Proof.Gen.Kernel.Frame
import proofs.«115752_j14894946583396_2_alg».proof.Proof.Gen.KernelIdeal
import proofs.«115752_j14894946583396_2_alg».proof.Proof.Gen.KernelIdeal.Skeleton
import proofs.«115752_j14894946583396_2_alg».proof.Proof.Gen.KernelIdeal.Launch
import proofs.«115752_j14894946583396_2_alg».proof.Proof.Gen.KernelIdeal.Points
import proofs.«115752_j14894946583396_2_alg».proof.Proof.Gen.KernelIdeal.Frame
import proofs.«115752_j14894946583396_2_alg».proof.Proof.Gen.ReferenceIdeal
import proofs.«115752_j14894946583396_2_alg».proof.Proof.Gen.Pre_finite_inputs
import proofs.«115752_j14894946583396_2_alg».proof.Proof.Gen.KernelIdeal.Value
import proofs.«115752_j14894946583396_2_alg».proof.Proof.Gen.ReferenceIdeal.Run
import proofs.«115752_j14894946583396_2_alg».proof.Proof.Gen.ReferenceIdeal.Read
import proofs.«115752_j14894946583396_2_alg».proof.Proof.KernelValue
import proofs.«115752_j14894946583396_2_alg».proof.Proof.RefValue
import Idealize.ShloMosaic.Adequacy
import Idealize.ShloMosaic.Init

noncomputable section

namespace Cert.Proof

open Idealize.ShloMosaic Idealize.SL.Sem

/-- The word-level kernel runs and leaves its arguments unchanged: the generated frame run. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The idealized reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result array at
    `Cert.DenseMlp.mlp` of the arguments: the kernel's by its 32 blocks (`Whole.run`), the reference's by reading its
    composed term at an index (`RefValue.ref_eq`). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, -, h2, h3, h4, h5⟩ := hagree c
  rw [Cert.ReferenceIdeal.Read.val_main_v10_eq, Cert.ReferenceIdeal.RefValue.ref_eq, h0, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
